-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S14336x4096 : Shape := ⟨2, ![14336, 4096]⟩
abbrev S4096x14336 : Shape := ⟨2, ![4096, 14336]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn_part1 {F : FTy → Type} [FloatOps F] (main_v13 : IVec S_ 1) (main_v16 : IVec S4096x14336 1) : IVec S_ 1 :=
  let main_c_5 : IVec S_ 1 := constantI S_ 1 1#1
  let main_v17 : IVec S_ 1 := (fun x v => Host.reduce IntOp.andi x v reducesTo_S4096x14336_S_d0_1 h_S_) main_v16 main_c_5
  let main_v18 : IVec S_ 1 := andi main_v13 main_v17
  main_v18

def fn {F : FTy → Type} [FloatOps F] (main_arg0 : FVec F S2x2048x4096 .f32) (main_arg1 : FVec F S14336x4096 .f32) (main_arg2 : FVec F S14336x4096 .f32) (main_arg3 : FVec F S4096x14336 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S14336x4096 .f32 := Host.absf main_arg2
  let main_cst_2 : FVec F S_ .f32 := constant S_ .f32 0x7F800000#32
  let main_v10 : FVec F S14336x4096 .f32 := broadcastInDim S14336x4096 ![] bcast_S_S14336x4096 main_cst_2
  let main_v11 : IVec S14336x4096 1 := cmpf .olt main_v9 main_v10
  let main_c_3 : IVec S_ 1 := constantI S_ 1 1#1
  let main_v12 : IVec S_ 1 := (fun x v => Host.reduce IntOp.andi x v reducesTo_S14336x4096_S_d0_1 h_S_) main_v11 main_c_3
  let main_v13 : IVec S_ 1 := andi main_v8 main_v12
  let main_v14 : FVec F S4096x14336 .f32 := Host.absf main_arg3
  let main_cst_4 : FVec F S_ .f32 := constant S_ .f32 0x7F800000#32
  let main_v15 : FVec F S4096x14336 .f32 := broadcastInDim S4096x14336 ![] bcast_S_S4096x14336 main_cst_4
  let main_v16 : IVec S4096x14336 1 := cmpf .olt main_v14 main_v15
  fn_part1 (F := F) main_v13 main_v16
-- ==== Kernel.lean ====
abbrev S2x2048x4096 : Shape := ⟨3, ![2, 2048, 4096]⟩
abbrev S14336x4096 : Shape := ⟨2, ![14336, 4096]⟩
abbrev S4096x14336 : Shape := ⟨2, ![4096, 14336]⟩
abbrev S4096x4096 : Shape := ⟨2, ![4096, 4096]⟩
abbrev S512x4096 : Shape := ⟨2, ![512, 4096]⟩
abbrev S256x4096 : Shape := ⟨2, ![256, 4096]⟩
abbrev S4096x256 : Shape := ⟨2, ![4096, 256]⟩
abbrev S512x256 : Shape := ⟨2, ![512, 256]⟩

abbrev nBuf : Space → Nat
  | .hbm => 11
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S14336x4096, .f32⟩
  | .hbm, ⟨2, _⟩ => ⟨S14336x4096, .f32⟩
  | .hbm, ⟨3, _⟩ => ⟨S4096x14336, .f32⟩
  | .hbm, ⟨4, _⟩ => ⟨S4096x4096, .f32⟩
  | .hbm, ⟨5, _⟩ => ⟨S4096x4096, .bf16⟩
  | .hbm, ⟨6, _⟩ => ⟨S14336x4096, .bf16⟩
  | .hbm, ⟨7, _⟩ => ⟨S14336x4096, .bf16⟩
  | .hbm, ⟨8, _⟩ => ⟨S4096x14336, .bf16⟩
  | .hbm, ⟨9, _⟩ => ⟨S4096x4096, .f32⟩
  | .hbm, ⟨10, _⟩ => ⟨S2x2048x4096, .f32⟩
  | .local _ .vmem, ⟨0, _⟩ => ⟨S512x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S4096x256, .bf16⟩
  | .local _ .vmem, ⟨6, _⟩ => ⟨S4096x256, .bf16⟩
  | .local _ .vmem, ⟨7, _⟩ => ⟨S512x4096, .f32⟩
  | .local _ .vmem, ⟨8, _⟩ => ⟨S512x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 56], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x2048x4096_S4096x4096 : S2x2048x4096.ShapeCasts S4096x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S4096x4096_S2x2048x4096 : S4096x4096.ShapeCasts S2x2048x4096
  dot_S512x4096_S256x4096_S512x256_1_1_0_0_n_n_wf : DotDims.WF S512x4096 S256x4096 S512x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .bf16 = 32 ∨ (Rect.block (s := S14336x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S14336x4096.size a
  hwx0_2 : ∀ i : grid0.Coords, EltTy.bits .bf16 = 32 ∨ (Rect.block (s := S14336x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x14336.size a
  hwx0_3 : ∀ i : grid0.Coords, EltTy.bits .bf16 = 32 ∨ (Rect.block (s := S4096x14336) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .f32 = 32 ∨ (Rect.block (s := S4096x4096) S512x4096.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v1) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S14336x4096 : Shape := ⟨2, ![14336, 4096]⟩
abbrev S4096x14336 : Shape := ⟨2, ![4096, 14336]⟩
abbrev S2x2048x14336 : Shape := ⟨3, ![2, 2048, 14336]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S14336x4096, .f32⟩
  | .hbm, ⟨2, _⟩ => ⟨S14336x4096, .f32⟩
  | .hbm, ⟨3, _⟩ => ⟨S4096x14336, .f32⟩
  | .hbm, ⟨4, _⟩ => ⟨S2x2048x14336, .f32⟩
  | .hbm, ⟨5, _⟩ => ⟨S2x2048x14336, .f32⟩
  | .hbm, ⟨6, _⟩ => ⟨S2x2048x14336, .f32⟩
  | .hbm, ⟨7, _⟩ => ⟨S2x2048x14336, .f32⟩
  | .hbm, ⟨8, _⟩ => ⟨S_, .f32⟩
  | .hbm, ⟨9, _⟩ => ⟨S2x2048x14336, .f32⟩
  | .hbm, ⟨10, _⟩ => ⟨S2x2048x14336, .f32⟩
  | .hbm, ⟨11, _⟩ => ⟨S_, .f32⟩
  | .hbm, ⟨12, _⟩ => ⟨S2x2048x14336, .f32⟩
  | .hbm, ⟨13, _⟩ => ⟨S2x2048x14336, .f32⟩
  | .hbm, ⟨14, _⟩ => ⟨S2x2048x14336, .f32⟩
  | .hbm, ⟨15, _⟩ => ⟨S2x2048x14336, .f32⟩
  | .hbm, ⟨16, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S2x2048x14336 : S_.BroadcastsInDim S2x2048x14336 (![] : Fin 0 → Fin S2x2048x14336.rank)
  dot_S2x2048x4096_S14336x4096_S2x2048x14336_2_1_01_0_n_n_wf : DotDims.WF S2x2048x4096 S14336x4096 S2x2048x14336 [2] [1] [0, 1] [0] [] []
  dot_S2x2048x14336_S4096x14336_S2x2048x4096_2_1_01_0_n_n_wf : DotDims.WF S2x2048x14336 S4096x14336 S2x2048x4096 [2] [1] [0, 1] [0] [] []

variable [Facts₀]

def dot_S2x2048x4096_S14336x4096_S2x2048x14336_2_1_01_0_n_n : DotDims S2x2048x4096 S14336x4096 S2x2048x14336 where
  lhsContracting := [2]
  rhsContracting := [1]
  lhsNonContracting := [0, 1]
  rhsNonContracting := [0]
  lhsBatch := []
  rhsBatch := []
  wf := dot_S2x2048x4096_S14336x4096_S2x2048x14336_2_1_01_0_n_n_wf
def dot_S2x2048x14336_S4096x14336_S2x2048x4096_2_1_01_0_n_n : DotDims S2x2048x14336 S4096x14336 S2x2048x4096 where
  lhsContracting := [2]
  rhsContracting := [1]
  lhsNonContracting := [0, 1]
  rhsNonContracting := [0]
  lhsBatch := []
  rhsBatch := []
  wf := dot_S2x2048x14336_S4096x14336_S2x2048x4096_2_1_01_0_n_n_wf

class Facts : Prop extends Facts₀ where

variable [Facts]
-- ==== Proof.Cases.lean ====
/-
  What the body leaves in the output block, case by case.

  At the first point of a run over the feature blocks the body first stores the zero block,
  reads it back, and stores the payload over it; at every later point it stores the payload
  over what the point before left. In both cases the one covering store decides the block's
  contents, and its loads read the whole staging buffers.
-/
import proofs.«138645_j58360015618262_2_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A later point of a run: the block held `xo`, and the body leaves the payload over `xo`. -/
theorem out_B (c : Dev nD) (i : grid0.Coords) (a2 : Memref sig .tc .vmem S512x4096 .bf16) (h2 : a2.IsWhole)
    (a3 : Memref sig .tc .vmem S256x4096 .bf16) (h3 : a3.IsWhole) (a4 : Memref sig .tc .vmem S256x4096 .bf16) (h4 : a4.IsWhole)
    (a5 : Memref sig .tc .vmem S4096x256 .bf16) (h5 : a5.IsWhole) (a6 : Memref sig .tc .vmem S512x4096 .f32) (h6 : a6.IsWhole)
    (hc : ¬cond0_0 i) (x0 : Vec F S512x4096 .bf16) (x1 x2 : Vec F S256x4096 .bf16) (x3 : Vec F S4096x256 .bf16)
    (xo : Vec F S512x4096 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  rw [View.canon_unit_zero hz]
  simp only [View.readAt_eq_ld, h2.read_unread, h3.read_unread, h4.read_unread, h5.read_unread, h6.read_unread,
    View.ld_unit_zero (S := S512x4096) hz, View.ld_unit_zero (S := S256x4096) hz, View.ld_unit_zero (S := S4096x256) hz]

/-- The first point of a run: the body stores the zero block and then the payload over it. -/
theorem out_A (c : Dev nD) (i : grid0.Coords) (a2 : Memref sig .tc .vmem S512x4096 .bf16) (h2 : a2.IsWhole)
    (a3 : Memref sig .tc .vmem S256x4096 .bf16) (h3 : a3.IsWhole) (a4 : Memref sig .tc .vmem S256x4096 .bf16) (h4 : a4.IsWhole)
    (a5 : Memref sig .tc .vmem S4096x256 .bf16) (h5 : a5.IsWhole) (a6 : Memref sig .tc .vmem S512x4096 .f32) (h6 : a6.IsWhole)
    (hc : cond0_0 i) (x0 : Vec F S512x4096 .bf16) (x1 x2 : Vec F S256x4096 .bf16) (x3 : Vec F S4096x256 .bf16) :
    out0_A_4 c i a2 h2 a3 h3 a4 h4 a5 h5 a6 h6 hc x0 x1 x2 x3 = k0_pay2 x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S512x4096) hz, View.readCov_unit_zero (S := S512x4096) _ hz]
  simp only [View.readAt_eq_ld, h2.read_unread, h3.read_unread, h4.read_unread, h5.read_unread,
    View.ld_unit_zero (S := S512x4096) hz, View.ld_unit_zero (S := S256x4096) hz, View.ld_unit_zero (S := S4096x256) hz]

end Cert.KernelIdeal.Cases

end
-- ==== Proof.Payload.lean ====
/-
  The kernel body's arithmetic, read at one entry of the output block, over the extended reals.

  With `x` the 512 × 4096 block of activations, `wg`, `wu` the 256 × 4096 blocks of gate and up
  weights, `wd` the 4096 × 256 block of down weights and `acc` what the output block held before,
  the stored value at `(p, q)` is
    `acc p q + ∑ t < 256, ((g p t * logistic (g p t)) * u p t) * wd q t`,
  where `g p t = ∑ k < 4096, x p k * wg t k` and `u p t = ∑ k < 4096, x p k * wu t k`:
  each matrix product into a zero accumulator is a plain sum over its one contracted axis, and
  a change of float format is the identity.
-/
import proofs.«138645_j58360015618262_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-! ## The two products' operand indices, axis by axis -/

theorem rows_lhs_0 (i : S512x256.Idx) (c : dot_S512x4096_S256x4096_S512x256_1_1_0_0_n_n.contr.Idx) : (dot_S512x4096_S256x4096_S512x256_1_1_0_0_n_n.lhsIdx i c 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem rows_lhs_1 (i : S512x256.Idx) (c : dot_S512x4096_S256x4096_S512x256_1_1_0_0_n_n.contr.Idx) : (dot_S512x4096_S256x4096_S512x256_1_1_0_0_n_n.lhsIdx i c 1).val = (c ⟨0, by decide⟩).val :=
  dot_S512x4096_S256x4096_S512x256_1_1_0_0_n_n.lhsIdx_val_of_single rfl i c
theorem rows_rhs_0 (i : S512x256.Idx) (c : dot_S512x4096_S256x4096_S512x256_1_1_0_0_n_n.contr.Idx) : (dot_S512x4096_S256x4096_S512x256_1_1_0_0_n_n.rhsIdx i c 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem rows_rhs_1 (i : S512x256.Idx) (c : dot_S512x4096_S256x4096_S512x256_1_1_0_0_n_n.contr.Idx) : (dot_S512x4096_S256x4096_S512x256_1_1_0_0_n_n.rhsIdx i c 1).val = (c ⟨0, by decide⟩).val :=
  dot_S512x4096_S256x4096_S512x256_1_1_0_0_n_n.rhsIdx_val_of_single rfl i c

theorem cols_lhs_0 (i : S512x4096.Idx) (c : dot_S512x256_S4096x256_S512x4096_1_1_0_0_n_n.contr.Idx) : (dot_S512x256_S4096x256_S512x4096_1_1_0_0_n_n.lhsIdx i c 0).val = (i 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
theorem cols_lhs_1 (i : S512x4096.Idx) (c : dot_S512x256_S4096x256_S512x4096_1_1_0_0_n_n.contr.Idx) : (dot_S512x256_S4096x256_S512x4096_1_1_0_0_n_n.lhsIdx i c 1).val = (c ⟨0, by decide⟩).val :=
  dot_S512x256_S4096x256_S512x4096_1_1_0_0_n_n.lhsIdx_val_of_single rfl i c
theorem cols_rhs_0 (i : S512x4096.Idx) (c : dot_S512x256_S4096x256_S512x4096_1_1_0_0_n_n.contr.Idx) : (dot_S512x256_S4096x256_S512x4096_1_1_0_0_n_n.rhsIdx i c 0).val = (i 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
theorem cols_rhs_1 (i : S512x4096.Idx) (c : dot_S512x256_S4096x256_S512x4096_1_1_0_0_n_n.contr.Idx) : (dot_S512x256_S4096x256_S512x4096_1_1_0_0_n_n.rhsIdx i c 1).val = (c ⟨0, by decide⟩).val :=
  dot_S512x256_S4096x256_S512x4096_1_1_0_0_n_n.rhsIdx_val_of_single rfl i c

/-- The product contracting the 4096 columns of a 512-row block with those of a 256-row block:
    entry `(p, t)` is `∑ k, x p k * w t k`. -/
theorem rows_matmul_apply (x : FVec Ideal S512x4096 .bf16) (w : FVec Ideal S256x4096 .bf16) (p : Fin 512) (t : Fin 256) :
    matmul dot_S512x4096_S256x4096_S512x256_1_1_0_0_n_n none x w (constant (F := Ideal) S512x256 .f32 0x00000000#32) (ix2 p t)
      = ∑ k : Fin 4096, x (ix2 p k) * w (ix2 t k) := by
  refine (Ideal.matmul_constant_zero_apply dot_S512x4096_S256x4096_S512x256_1_1_0_0_n_n none x w (ix2 p t)).trans ?_
  rw [← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p t) ((contrEquiv1 dot_S512x4096_S256x4096_S512x256_1_1_0_0_n_n 4096 rfl rfl).symm k) = ix2 p k :=
    funext fun a => Fin.ext (by
      match a with
      | ⟨0, _⟩ => exact rows_lhs_0 _ _
      | ⟨1, _⟩ => exact (rows_lhs_1 _ _).trans hk)
  have er : dot_S512x4096_S256x4096_S512x256_1_1_0_0_n_n.rhsIdx (ix2 p t) ((contrEquiv1 dot_S512x4096_S256x4096_S512x256_1_1_0_0_n_n 4096 rfl rfl).symm k) = ix2 t k :=
    funext fun a => Fin.ext (by
      match a with
      | ⟨0, _⟩ => exact rows_rhs_0 _ _
      | ⟨1, _⟩ => exact (rows_rhs_1 _ _).trans hk)
  rw [el, er]

/-- The product contracting the 256 columns of a 512-row block with those of a 4096-row block:
    entry `(p, q)` is `∑ t, a p t * w q t`. -/
theorem cols_matmul_apply (a : FVec Ideal S512x256 .bf16) (w : FVec Ideal S4096x256 .bf16) (p : Fin 512) (q : Fin 4096) :
    matmul dot_S512x256_S4096x256_S512x4096_1_1_0_0_n_n none a w (constant (F := Ideal) S512x4096 .f32 0x00000000#32) (ix2 p q)
      = ∑ t : Fin 256, a (ix2 p t) * w (ix2 q t) := by
  refine (Ideal.matmul_constant_zero_apply dot_S512x256_S4096x256_S512x4096_1_1_0_0_n_n none a w (ix2 p q)).trans ?_
  rw [← Equiv.sum_comp (contrEquiv1 dot_S512x256_S4096x256_S512x4096_1_1_0_0_n_n 256 rfl rfl).symm]
  refine Finset.sum_congr rfl fun t _ => ?_
  have ht := contrEquiv1_symm_val dot_S512x256_S4096x256_S512x4096_1_1_0_0_n_n 256 rfl rfl t
  have el : dot_S512x256_S4096x256_S512x4096_1_1_0_0_n_n.lhsIdx (ix2 p q) ((contrEquiv1 dot_S512x256_S4096x256_S512x4096_1_1_0_0_n_n 256 rfl rfl).symm t) = ix2 p t :=
    funext fun b => Fin.ext (by
      match b with
      | ⟨0, _⟩ => exact cols_lhs_0 _ _
      | ⟨1, _⟩ => exact (cols_lhs_1 _ _).trans ht)
  have er : dot_S512x256_S4096x256_S512x4096_1_1_0_0_n_n.rhsIdx (ix2 p q) ((contrEquiv1 dot_S512x256_S4096x256_S512x4096_1_1_0_0_n_n 256 rfl rfl).symm t) = ix2 q t :=
    funext fun b => Fin.ext (by
      match b with
      | ⟨0, _⟩ => exact cols_rhs_0 _ _
      | ⟨1, _⟩ => exact (cols_rhs_1 _ _).trans ht)
  rw [el, er]

/-- The stored value at `(p, q)`: what the block held before plus this feature block's contribution. -/
theorem pay2_apply (x : Vec Ideal S512x4096 .bf16) (wg wu : Vec Ideal S256x4096 .bf16) (wd : Vec Ideal S4096x256 .bf16)
    (acc : Vec Ideal S512x4096 .f32) (p : Fin 512) (q : Fin 4096) :
    k0_pay2 (F := Ideal) x wg wu wd acc (ix2 p q)
      = acc (ix2 p q) + ∑ t : Fin 256,
          (((∑ k : Fin 4096, x (ix2 p k) * wg (ix2 t k)) * Ideal.logistic (∑ k : Fin 4096, x (ix2 p k) * wg (ix2 t k)))
            * (∑ k : Fin 4096, x (ix2 p k) * wu (ix2 t k))) * wd (ix2 q t) := by
  unfold k0_pay2
  simp only [shapeCast_self]
  refine congrArg (acc (ix2 p q) + ·) ?_
  refine (cols_matmul_apply _ wd p q).trans ?_
  refine Finset.sum_congr rfl fun t _ => ?_
  refine congrArg (· * wd (ix2 q t)) ?_
  show (matmul dot_S512x4096_S256x4096_S512x256_1_1_0_0_n_n none x wg (constant (F := Ideal) S512x256 .f32 0x00000000#32) (ix2 p t)
      * Ideal.logistic (matmul dot_S512x4096_S256x4096_S512x256_1_1_0_0_n_n none x wg (constant (F := Ideal) S512x256 .f32 0x00000000#32) (ix2 p t)))
      * matmul dot_S512x4096_S256x4096_S512x256_1_1_0_0_n_n none x wu (constant (F := Ideal) S512x256 .f32 0x00000000#32) (ix2 p t) = _
  rw [rows_matmul_apply x wg p t, rows_matmul_apply x wu p t]

end Cert.KernelIdeal.Payload

end
-- ==== Proof.LibSumBlocks.lean ====
/-
  A sum over an index range of length A * B, regrouped into A consecutive blocks of length B.
  Only commutativity and associativity of addition are used, so the law holds in any additive
  commutative monoid, the extended reals included: no finiteness is needed.
-/
import Mathlib.Algebra.BigOperators.Fin
import Mathlib.Algebra.BigOperators.Group.Finset.Basic

namespace BlockSum

open Finset

/-- The sum over `Fin (A * B)` is the sum over the `A` blocks of the sums inside each block:
    the entry `(a, b)` of the block decomposition is the index `a * B + b`. -/
theorem sum_blocks {M : Type*} [AddCommMonoid M] (A B : Nat) (f : Nat → M) :
    (∑ i : Fin (A * B), f i.val) = ∑ a : Fin A, ∑ b : Fin B, f (a.val * B + b.val) := by
  rw [← Finset.sum_product', ← finProdFinEquiv.sum_comp]
  refine Finset.sum_congr rfl fun p _ => ?_
  simp [finProdFinEquiv, Nat.add_comm, Nat.mul_comm]

end BlockSum
-- ==== Proof.Gate.lean ====
/-
  The gated projection as plain sums over the extended reals.

  A matrix is read at natural-number coordinates (zero outside its extents), so that a row offset
  `512 * q + p` or a column offset `j * 256 + t` is ordinary arithmetic. For a row `r` of the
  activations and a feature `i`, the gate is `g = ∑ k, X r k * WG i k`, the up value
  `u = ∑ k, X r k * WU i k`, and the activation is `(g * logistic g) * u`. The down projection
  at `(r, h)` is `∑ i < 14336, act r i * WD h i`; cut into 56 consecutive blocks of 256 features it
  is the sum of the 56 block contributions, by regrouping alone (no finiteness is used).
-/
import Idealize.ShloMosaic.PureOps.Ideal
import Idealize.ShloMosaic.Lib.ValueIdx
import proofs.«138645_j58360015618262_2_alg».proof.Proof.LibSumBlocks

noncomputable section

namespace GatedMlp

open Idealize.ShloMosaic Idealize.ShloMosaic.ValueIdx

/-- The entry of a matrix at natural-number coordinates, zero outside its extents. -/
def at2 {a b : Nat} (W : (⟨2, ![a, b]⟩ : Shape).Idx → EReal) (r c : Nat) : EReal :=
  if h : r < a ∧ c < b then W (ix2 ⟨r, h.1⟩ ⟨c, h.2⟩) else 0

theorem at2_of_lt {a b : Nat} (W : (⟨2, ![a, b]⟩ : Shape).Idx → EReal) {r c : Nat} (hr : r < a) (hc : c < b) :
    at2 W r c = W (ix2 ⟨r, hr⟩ ⟨c, hc⟩) := dif_pos ⟨hr, hc⟩

/-- Reading at an index's own coordinates is reading at the index. -/
theorem at2_idx {a b : Nat} (W : (⟨2, ![a, b]⟩ : Shape).Idx → EReal) (j : (⟨2, ![a, b]⟩ : Shape).Idx) :
    at2 W (j 0).val (j 1).val = W j := by
  rw [at2_of_lt W (idx2_lt0 j) (idx2_lt1 j)]
  exact congrArg W (eq_ix2 j).symm

variable (X : (⟨2, ![4096, 4096]⟩ : Shape).Idx → EReal)
variable (WG WU : (⟨2, ![14336, 4096]⟩ : Shape).Idx → EReal)
variable (WD : (⟨2, ![4096, 14336]⟩ : Shape).Idx → EReal)

/-- Row `r` of the activations against row `i` of a weight matrix, contracted over the 4096 columns. -/
def rowDot (W : (⟨2, ![14336, 4096]⟩ : Shape).Idx → EReal) (r i : Nat) : EReal :=
  ∑ k : Fin 4096, at2 X r k.val * at2 W i k.val

/-- The gated activation of row `r` at feature `i`: `(g * logistic g) * u`. -/
def act (r i : Nat) : EReal :=
  (rowDot X WG r i * Ideal.logistic (rowDot X WG r i)) * rowDot X WU r i

/-- One term of the down projection at `(r, h)`: feature `i`'s activation times its down weight. -/
def term (r h i : Nat) : EReal := act X WG WU r i * at2 WD h i

/-- The down projection at `(r, h)`: the sum over all 14336 features. -/
def down (r h : Nat) : EReal := ∑ i : Fin 14336, term X WG WU WD r h i.val

/-- The contribution of feature block `j` (features `j * 256 … j * 256 + 255`) at `(r, h)`. -/
def blockTerm (r h j : Nat) : EReal := ∑ t : Fin 256, term X WG WU WD r h (j * 256 + t.val)

/-- The down projection is the sum of its 56 feature blocks' contributions. -/
theorem down_eq_blocks (r h : Nat) :
    down X WG WU WD r h = ∑ j : Fin 56, blockTerm X WG WU WD r h j.val :=
  BlockSum.sum_blocks 56 256 (term X WG WU WD r h)

/-- The same over a range, the form a running sum over grid points takes. -/
theorem down_eq_range (r h : Nat) :
    down X WG WU WD r h = ∑ s ∈ Finset.range 56, blockTerm X WG WU WD r h s := by
  rw [down_eq_blocks, Finset.sum_range]

end GatedMlp

end
-- ==== Proof.Blocks.lean ====
/-
  The windows' blocks, read at an entry.

  Grid point `t` (of 448, row-major over 8 row tiles × 56 feature blocks) is row tile `t / 56`
  and feature block `t % 56`. The activations' block holds rows `512 * (t / 56) …` of the
  activations; the gate and up blocks hold rows `(t % 56) * 256 …` of their weight matrices; the
  down block holds columns `(t % 56) * 256 …` of the down matrix. An element of a block sits in
  its array, on each axis, at block index × block size + its own coordinate.
-/
import proofs.«138645_j58360015618262_2_alg».proof.Proof.Gen.KernelIdeal.Frame.Runs
import proofs.«138645_j58360015618262_2_alg».proof.Proof.Gate
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx GatedMlp

variable (m : (ℓ : Loc nD τ sig) → Buf (Elt Ideal) ℓ)

/-! ## The index maps in closed form, decided over the grid -/

theorem index0 : ∀ t : Fin cfg0.N, win0_0.index t 0 = t.val / 56 ∧ win0_0.index t 1 = 0 :=
  (by decide +kernel : ∀ t : Fin grid0.N, win0_0.index t 0 = t.val / 56 ∧ win0_0.index t 1 = 0)
theorem index1 : ∀ t : Fin cfg0.N, win0_1.index t 0 = t.val % 56 ∧ win0_1.index t 1 = 0 :=
  (by decide +kernel : ∀ t : Fin grid0.N, win0_1.index t 0 = t.val % 56 ∧ win0_1.index t 1 = 0)
theorem index2 : ∀ t : Fin cfg0.N, win0_2.index t 0 = t.val % 56 ∧ win0_2.index t 1 = 0 :=
  (by decide +kernel : ∀ t : Fin grid0.N, win0_2.index t 0 = t.val % 56 ∧ win0_2.index t 1 = 0)
theorem index3 : ∀ t : Fin cfg0.N, win0_3.index t 0 = 0 ∧ win0_3.index t 1 = t.val % 56 :=
  (by decide +kernel : ∀ t : Fin grid0.N, win0_3.index t 0 = 0 ∧ win0_3.index t 1 = t.val % 56)
theorem index4 : ∀ t : Fin cfg0.N, win0_4.index t 0 = t.val / 56 ∧ win0_4.index t 1 = 0 :=
  (by decide +kernel : ∀ t : Fin grid0.N, win0_4.index t 0 = t.val / 56 ∧ win0_4.index t 1 = 0)

theorem lt_N (t : Fin cfg0.N) : t.val < 448 := lt_of_lt_of_eq t.isLt (show cfg0.N = 448 from N_0)

/-! ## Each input block at an entry -/

/-- The activations' block at point `t`, entry `(p, k)`: row `512 * (t / 56) + p`, column `k`. -/
theorem iblk0_apply (c : Dev nD) (t : Fin cfg0.N) (p : Fin 512) (k : Fin 4096) :
    (iblk m c 0 t : Vec Ideal S512x4096 .bf16) (ix2 p k)
      = at2 (a := 4096) (b := 4096) (V m c main_v1) (512 * (t.val / 56) + p.val) k.val := by
  have hi := index0 t
  have hN := lt_N t
  have hp : 512 * (t.val / 56) + p.val < 4096 := by have := p.isLt; omega
  rw [at2_of_lt _ hp k.isLt]
  unfold iblk
  rw [View.read_apply]
  show V m c main_v1 _ = V m c main_v1 _
  refine congrArg (V m c main_v1) ?_
  funext a
  apply Fin.ext
  match a with
  | ⟨0, _⟩ => show win0_0.index t 0 * 512 + 1 * p.val = 512 * (t.val / 56) + p.val; rw [hi.1]; omega
  | ⟨1, _⟩ => show win0_0.index t 1 * 4096 + 1 * k.val = k.val; rw [hi.2]; omega

/-- The gate weights' block at point `t`, entry `(s, k)`: row `(t % 56) * 256 + s`, column `k`. -/
theorem iblk1_apply (c : Dev nD) (t : Fin cfg0.N) (s : Fin 256) (k : Fin 4096) :
    (iblk m c 1 t : Vec Ideal S256x4096 .bf16) (ix2 s k)
      = at2 (a := 14336) (b := 4096) (V m c main_v2) (t.val % 56 * 256 + s.val) k.val := by
  have hi := index1 t
  have hs : t.val % 56 * 256 + s.val < 14336 := by have := s.isLt; have := Nat.mod_lt t.val (show 0 < 56 by decide); omega
  rw [at2_of_lt _ hs k.isLt]
  unfold iblk
  rw [View.read_apply]
  show V m c main_v2 _ = V m c main_v2 _
  refine congrArg (V m c main_v2) ?_
  funext a
  apply Fin.ext
  match a with
  | ⟨0, _⟩ => show win0_1.index t 0 * 256 + 1 * s.val = t.val % 56 * 256 + s.val; rw [hi.1]; omega
  | ⟨1, _⟩ => show win0_1.index t 1 * 4096 + 1 * k.val = k.val; rw [hi.2]; omega

/-- The up weights' block at point `t`, entry `(s, k)`: row `(t % 56) * 256 + s`, column `k`. -/
theorem iblk2_apply (c : Dev nD) (t : Fin cfg0.N) (s : Fin 256) (k : Fin 4096) :
    (iblk m c 2 t : Vec Ideal S256x4096 .bf16) (ix2 s k)
      = at2 (a := 14336) (b := 4096) (V m c main_v3) (t.val % 56 * 256 + s.val) k.val := by
  have hi := index2 t
  have hs : t.val % 56 * 256 + s.val < 14336 := by have := s.isLt; have := Nat.mod_lt t.val (show 0 < 56 by decide); omega
  rw [at2_of_lt _ hs k.isLt]
  unfold iblk
  rw [View.read_apply]
  show V m c main_v3 _ = V m c main_v3 _
  refine congrArg (V m c main_v3) ?_
  funext a
  apply Fin.ext
  match a with
  | ⟨0, _⟩ => show win0_2.index t 0 * 256 + 1 * s.val = t.val % 56 * 256 + s.val; rw [hi.1]; omega
  | ⟨1, _⟩ => show win0_2.index t 1 * 4096 + 1 * k.val = k.val; rw [hi.2]; omega

/-- The down weights' block at point `t`, entry `(q, s)`: row `q`, column `(t % 56) * 256 + s`. -/
theorem iblk3_apply (c : Dev nD) (t : Fin cfg0.N) (q : Fin 4096) (s : Fin 256) :
    (iblk m c 3 t : Vec Ideal S4096x256 .bf16) (ix2 q s)
      = at2 (a := 4096) (b := 14336) (V m c main_v4) q.val (t.val % 56 * 256 + s.val) := by
  have hi := index3 t
  have hs : t.val % 56 * 256 + s.val < 14336 := by have := s.isLt; have := Nat.mod_lt t.val (show 0 < 56 by decide); omega
  rw [at2_of_lt _ q.isLt hs]
  unfold iblk
  rw [View.read_apply]
  show V m c main_v4 _ = V m c main_v4 _
  refine congrArg (V m c main_v4) ?_
  funext a
  apply Fin.ext
  match a with
  | ⟨0, _⟩ => show win0_3.index t 0 * 4096 + 1 * q.val = q.val; rw [hi.1]; omega
  | ⟨1, _⟩ => show win0_3.index t 1 * 256 + 1 * s.val = t.val % 56 * 256 + s.val; rw [hi.2]; omega

end Cert.KernelIdeal.Blocks

end
-- ==== Proof.Accum.lean ====
/-
  The output block after each grid point: a running sum over the feature blocks.

  Row tile `q` is visited at the 56 consecutive points `56 * q … 56 * q + 55`, one feature block
  each. The first of them resets the block to zero and adds its block's contribution; every later
  one adds its own to what the point before left. So after point `t` the block's entry `(p, h)`
  is the sum of the contributions of feature blocks `0 … t % 56` at row `512 * (t / 56) + p`, and
  at the last point of the run (`t % 56 = 55`, the one that is written back) it is the whole
  down projection at that row.
-/
import proofs.«138645_j58360015618262_2_alg».proof.Proof.Gen.KernelIdeal.Frame
import proofs.«138645_j58360015618262_2_alg».proof.Proof.Cases
import proofs.«138645_j58360015618262_2_alg».proof.Proof.Payload
import proofs.«138645_j58360015618262_2_alg».proof.Proof.Blocks
import proofs.«138645_j58360015618262_2_alg».proof.Proof.Gate
import Idealize.ShloMosaic.Lib.Pipeline.Value

set_option maxRecDepth 16384

noncomputable section

namespace Cert.KernelIdeal.Accum

open Cert.KernelIdeal Cert.KernelIdeal.Gen Idealize.ShloMosaic Idealize.ShloMosaic.TcCoe Idealize.SL.Sem
open Idealize.ShloMosaic.ValueIdx GatedMlp
open Cert.KernelIdeal.Blocks Cert.KernelIdeal.Payload Cert.KernelIdeal.Cases

variable (m : (ℓ : Loc nD τ sig) → Buf (Elt Ideal) ℓ)

/-- Point `n`'s addend to the block's entry `i`: feature block `n % 56`'s contribution at row
    `512 * (n / 56) + i 0`, output column `i 1` (a function of every natural `n`). -/
def addend (c : Dev nD) (n : Nat) (i : S512x4096.Idx) : EReal :=
  blockTerm (V m c main_v1) (V m c main_v2) (V m c main_v3) (V m c main_v4) (512 * (n / 56) + (i 0).val) (i 1).val (n % 56)

/-- The body's stored value at point `t`, entry `(p, q)`, over a block holding `acc`: `acc` plus the point's addend. -/
theorem step_apply (c : Dev nD) (t : Fin cfg0.N) (acc : Vec Ideal S512x4096 .f32) (p : Fin 512) (q : Fin 4096) :
    k0_pay2 (F := Ideal) (iblk m c 0 t) (iblk m c 1 t) (iblk m c 2 t) (iblk m c 3 t) acc (ix2 p q)
      = acc (ix2 p q) + addend m c t.val (ix2 p q) := by
  refine (pay2_apply (iblk m c 0 t) (iblk m c 1 t) (iblk m c 2 t) (iblk m c 3 t) acc p q).trans ?_
  refine congrArg (acc (ix2 p q) + ·) ?_
  unfold addend blockTerm term act rowDot
  refine Finset.sum_congr rfl fun s _ => ?_
  simp only [iblk0_apply m c t, iblk1_apply m c t, iblk2_apply m c t, iblk3_apply m c t]

/-- The zero block the reset stores is zero at every entry. -/
theorem pay1_apply (i : S512x4096.Idx) : k0_pay1 (F := Ideal) i = 0 := Ideal.ofBits_zero_f32

/-- What the first point of a run leaves, and what a later point makes of what it found. -/
def first (c : Dev nD) (n : Nat) (h : n < cfg0.N) : Vec Ideal S512x4096 .f32 :=
  k0_pay2 (F := Ideal) (iblk m c 0 ⟨n, h⟩) (iblk m c 1 ⟨n, h⟩) (iblk m c 2 ⟨n, h⟩) (iblk m c 3 ⟨n, h⟩) (k0_pay1 (F := Ideal))
def next (c : Dev nD) (n : Nat) (h : n < cfg0.N) (acc : Vec Ideal S512x4096 .f32) : Vec Ideal S512x4096 .f32 :=
  k0_pay2 (F := Ideal) (iblk m c 0 ⟨n, h⟩) (iblk m c 1 ⟨n, h⟩) (iblk m c 2 ⟨n, h⟩) (iblk m c 3 ⟨n, h⟩) acc

theorem outs_first (c : Dev nD) (n : Nat) (h : n < cfg0.N) (h0 : n % 56 = 0) : outsAt0 m c n h = first m c n h :=
  (outsAt0_A m c ⟨n, h⟩ h0).trans (out_A ..)

theorem outs_next (c : Dev nD) (n : Nat) (h : n + 1 < cfg0.N) (h0 : ¬(n + 1) % 56 = 0) :
    outsAt0 m c (n + 1) h = next m c (n + 1) h (outsAt0 m c n (Nat.lt_of_succ_lt h)) :=
  (outsAt0_B m c ⟨n + 1, h⟩ h0).trans (out_B ..)

/-- After the last point of a run the block's entry `(p, q)` is the down projection at row `512 * (t / 56) + p`. -/
theorem outs_last (c : Dev nD) (t : Fin cfg0.N) (h55 : t.val % 56 = 55) (p : Fin 512) (q : Fin 4096) :
    outsAt0 m c t.val t.isLt (ix2 p q)
      = down (V m c main_v1) (V m c main_v2) (V m c main_v3) (V m c main_v4) (512 * (t.val / 56) + p.val) q.val := by
  have hN : cfg0.N = 448 := N_0
  have ht : t.val < 448 := lt_N t
  have h' : 56 * (t.val / 56) + t.val % 56 < cfg0.N :=
    lt_of_lt_of_eq (by omega : 56 * (t.val / 56) + t.val % 56 < 448) hN.symm
  rw [Pipeline.eq_accAt_of_mod (fun n h => outsAt0 m c n h) 56 (first m c) (next m c)
    (fun n h h0 => outs_first m c n h h0) (fun n h h0 => outs_next m c n h h0) (by decide) t.val t.isLt h']
  rw [Pipeline.accAt_add_apply (first m c) (next m c) (fun _ => (0 : EReal)) (addend m c) (56 * (t.val / 56)) 55
    (fun h i => by
      obtain ⟨p', q', rfl⟩ : ∃ (p' : Fin 512) (q' : Fin 4096), i = ix2 p' q' := ⟨i 0, i 1, eq_ix2 i⟩
      exact (step_apply m c ⟨_, h⟩ (k0_pay1 (F := Ideal)) p' q').trans (congrArg (· + _) (pay1_apply _)))
    (fun n h acc i _ _ => by
      obtain ⟨p', q', rfl⟩ : ∃ (p' : Fin 512) (q' : Fin 4096), i = ix2 p' q' := ⟨i 0, i 1, eq_ix2 i⟩
      exact step_apply m c ⟨n, h⟩ acc p' q')
    (t.val % 56) (by omega) h' (ix2 p q)]
  rw [zero_add, h55, down_eq_range]
  refine Finset.sum_congr rfl fun s hs => ?_
  have hs' : s < 56 := Finset.mem_range.mp hs
  unfold addend
  have e1 : (56 * (t.val / 56) + s) / 56 = t.val / 56 := by omega
  have e2 : (56 * (t.val / 56) + s) % 56 = s := by omega
  rw [e1, e2]

end Cert.KernelIdeal.Accum

end
-- ==== Proof.Final.lean ====
/-
  The result array after the run.

  Row tile `q`'s block is written back once, after the last of its 56 points, and then holds the
  down projection at rows `512 * q … 512 * q + 511`. The eight blocks tile the `[4096, 4096]`
  result array, so after the run its entry `(r, h)` is the down projection at `(r, h)`; the
  program's last operation reshapes that array to `[2, 2048, 4096]`.
-/
import proofs.«138645_j58360015618262_2_alg».proof.Proof.Gen.KernelIdeal.Frame
import proofs.«138645_j58360015618262_2_alg».proof.Proof.Accum
import proofs.«138645_j58360015618262_2_alg».proof.Proof.Blocks
import proofs.«138645_j58360015618262_2_alg».proof.Proof.Gate
import Idealize.ShloMosaic.Lib.Pipeline.Value
import Idealize.ShloMosaic.Lib.StableHlo.Run

set_option maxRecDepth 16384

noncomputable section

namespace Cert.KernelIdeal.Final

open Cert.KernelIdeal Cert.KernelIdeal.Gen Idealize.ShloMosaic Idealize.ShloMosaic.TcCoe Idealize.SL.Sem
open Idealize.ShloMosaic.ValueIdx GatedMlp
open Cert.KernelIdeal.Blocks Cert.KernelIdeal.Accum

variable (m : (ℓ : Loc nD τ sig) → Buf (Elt Ideal) ℓ) (ρ : Dev nD → PrngReg)

/-- The region's result array: the down projection of the arrays the region finds, entry by entry. -/
def result (c : Dev nD) : S4096x4096.Idx → EReal := fun j =>
  down (V m c main_v1) (V m c main_v2) (V m c main_v3) (V m c main_v4) (j 0).val (j 1).val

/-- What a writing-back point writes is its block of `result`. -/
theorem flushed_eq (c : Dev nD) (t : Fin cfg0.N) (hf : (cfg0.win 4).flush t = true) :
    (dats m 0 c).flushed 4 t = ((cfg0.win 4).blk t).view.read (Elt Ideal) (result m c) := by
  have h55 : t.val % 56 = 55 := (flush0_4 t).mp hf
  have hi := index4 t
  show (cfg0.win 4).cut (grid0.coords t) ((dats m 0 c).after 4 t) = _
  rw [after0_4]
  funext y
  obtain ⟨p, q, rfl⟩ : ∃ (p : Fin 512) (q : Fin 4096), y = ix2 p q := ⟨y 0, y 1, eq_ix2 y⟩
  rw [View.read_apply]
  show outsAt0 m c t.val t.isLt (ix2 p q) = result m c (((cfg0.win 4).blk t).view.emb (ix2 p q))
  rw [outs_last m c t h55 p q]
  unfold result
  show _ = down _ _ _ _ (win0_4.index t 0 * 512 + 1 * p.val) (win0_4.index t 1 * 4096 + 1 * q.val)
  rw [hi.1, hi.2]
  congr 1 <;> omega

/-- An index of the result array is in point `t`'s block iff each coordinate is in the block's range. -/
theorem mem_blk (t : Fin cfg0.N) (i : S4096x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v5).slice (win0_4.rect t)).set ↔ _
  rw [View.set_slice_whole, Rect.mem_set_unit]
  exact Iff.rfl

/-- Every entry of the result array is in the block of the last point of its row tile's run. -/
theorem cover (i : S4096x4096.Idx) :
    ∃ t : Fin cfg0.N, (cfg0.win 4).flush t = true ∧ i ∈ ((cfg0.win 4).blk t).view.set := by
  have hN : cfg0.N = 448 := N_0
  have hi0 : (i 0).val < 4096 := (i 0).isLt
  have hi1 : (i 1).val < 4096 := (i 1).isLt
  have hlt : (i 0).val / 512 * 56 + 55 < cfg0.N :=
    lt_of_lt_of_eq (by omega : (i 0).val / 512 * 56 + 55 < 448) hN.symm
  have hidx := index4 ⟨(i 0).val / 512 * 56 + 55, hlt⟩
  refine ⟨⟨(i 0).val / 512 * 56 + 55, hlt⟩, (flush0_4 _).mpr (by show ((i 0).val / 512 * 56 + 55) % 56 = 55; omega), ?_⟩
  rw [mem_blk]
  intro a
  match a with
  | ⟨0, _⟩ =>
    show win0_4.index ⟨(i 0).val / 512 * 56 + 55, hlt⟩ 0 * 512 ≤ (i 0).val ∧ (i 0).val < win0_4.index ⟨(i 0).val / 512 * 56 + 55, hlt⟩ 0 * 512 + 512
    rw [hidx.1]
    show ((i 0).val / 512 * 56 + 55) / 56 * 512 ≤ (i 0).val ∧ (i 0).val < ((i 0).val / 512 * 56 + 55) / 56 * 512 + 512
    omega
  | ⟨1, _⟩ =>
    show win0_4.index ⟨(i 0).val / 512 * 56 + 55, hlt⟩ 1 * 4096 ≤ (i 1).val ∧ (i 1).val < win0_4.index ⟨(i 0).val / 512 * 56 + 55, hlt⟩ 1 * 4096 + 4096
    rw [hidx.2]
    omega

/-- The result array after the run. -/
theorem final (c : Dev nD) : (dats m 0 c).arrAt 4 cfg0.N = result m c :=
  (dats m 0 c).arrAt_eq_of_cover 4 (result m c) (flushed_eq m c) cover

/-- The program's result: the region's result array reshaped to `[2, 2048, 4096]`. -/
theorem tail_v6 (c : Dev nD) :
    Pipeline.afterTail₀ cfgs (dats m) 0 (V0 m) [hostOps1] c main_v6
      = shapeCast S2x2048x4096 (result m c) Facts₀.shapeCasts_S4096x4096_S2x2048x4096 := by
  unfold Pipeline.afterTail₀
  show StableHlo.after hostOps1 _ (Proc.devRef .tc main_v6) = _
  after_results
  exact congrArg (fun a => shapeCast S2x2048x4096 a Facts₀.shapeCasts_S4096x4096_S2x2048x4096)
    ((Pipeline.withArrays_arr spec0 launch0.win.arr_inj c _ _ 4).trans (final m c))

/-- The run, read: the result at the reshaped down projection, the arguments unchanged. -/
theorem run : θ_run defs (onTc (τ := τ) (main (F := Ideal))) ⟨m, fun _ => 0, ρ⟩ fun r => ∀ c : Dev nD,
      r.2.mem ((c.tc : Thread nD τ).loc main_v6) = shapeCast S2x2048x4096 (result m c) Facts₀.shapeCasts_S4096x4096_S2x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.Inputs.lean ====
/-
  The arrays the region finds, in terms of the program's arguments.

  Before the region the program flattens the activations `[2, 2048, 4096]` to `[4096, 4096]` and
  changes the float format of all four arguments; over the extended reals a change of format is
  the identity, so the region finds the flattened activations and the three weight matrices
  themselves.
-/
import proofs.«138645_j58360015618262_2_alg».proof.Proof.Gen.KernelIdeal.Frame.Runs
import Idealize.ShloMosaic.Lib.StableHlo.Run
import Idealize.ShloMosaic.PureOps.Ideal

set_option maxRecDepth 16384

noncomputable section

namespace Cert.KernelIdeal.Inputs

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The activations as the region finds them: the argument flattened to `[4096, 4096]`. -/
theorem V_v1 (c : Dev nD) : (V m c main_v1 : S4096x4096.Idx → EReal)
    = shapeCast S4096x4096 (m ((c : Thread nD τ).loc main_arg0)) Facts₀.shapeCasts_S2x2048x4096_S4096x4096 := by
  show StableHlo.after hostOps0 (fun b => m (c, b)) (Proc.devRef .tc main_v1) = _
  after_results
  rfl

/-- The gate weights as the region finds them: the argument. -/
theorem V_v2 (c : Dev nD) : (V m c main_v2 : S14336x4096.Idx → EReal) = m ((c : Thread nD τ).loc main_arg1) := by
  show StableHlo.after hostOps0 (fun b => m (c, b)) (Proc.devRef .tc main_v2) = _
  after_results
  rfl

/-- The up weights as the region finds them: the argument. -/
theorem V_v3 (c : Dev nD) : (V m c main_v3 : S14336x4096.Idx → EReal) = m ((c : Thread nD τ).loc main_arg2) := by
  show StableHlo.after hostOps0 (fun b => m (c, b)) (Proc.devRef .tc main_v3) = _
  after_results
  rfl

/-- The down weights as the region finds them: the argument. -/
theorem V_v4 (c : Dev nD) : (V m c main_v4 : S4096x14336.Idx → EReal) = m ((c : Thread nD τ).loc main_arg3) := by
  show StableHlo.after hostOps0 (fun b => m (c, b)) (Proc.devRef .tc main_v4) = _
  after_results
  rfl

end Cert.KernelIdeal.Inputs

end
-- ==== Proof.RefDown.lean ====
/-
  The reference computes the same down projection.

  The reference contracts the activations `x[b, s, ·]` with each weight row, applies
  `g * (1 / (1 + exp (-g)))` times the up value, and contracts the 14336 features with the down
  weights. Over the extended reals `1 / (1 + exp (-g))` is the logistic function by definition,
  the literal `1.0` is the real 1, and row `(b, s)` of the activations is row `2048 * b + s` of
  their flattening. So the reference's result at `(b, s, h)` is the down projection at
  `(2048 * b + s, h)` of the flattened activations.
-/
import proofs.«138645_j58360015618262_2_alg».proof.Proof.Gen.ReferenceIdeal.Read
import proofs.«138645_j58360015618262_2_alg».proof.Proof.Gate
import Idealize.ShloMosaic.Lib.Pipeline.Value
import Idealize.ShloMosaic.Lib.ValueIdx

noncomputable section

namespace Cert.ReferenceIdeal.RefDown

open Cert.ReferenceIdeal Cert.ReferenceIdeal.Read Idealize.ShloMosaic Idealize.ShloMosaic.ValueIdx GatedMlp

/-- The literal `1.0` denotes the real 1. -/
theorem ofBits_one : Ideal.ofBits .f32 0x3F800000#32 = 1 := by
  simp [Ideal.ofBits, Ideal.ieee, -EReal.coe_mul]; norm_num

variable (x0 : S2x2048x4096.Idx → EReal) (x1 x2 : S14336x4096.Idx → EReal) (x3 : S4096x14336.Idx → EReal)
variable (hc : S2x2048x4096.ShapeCasts (⟨2, ![4096, 4096]⟩ : Shape))

/-- Row `2048 * b + s` of the flattened activations is row `(b, s)` of the activations. -/
theorem flat_apply (b : Fin 2) (s : Fin 2048) (k : Fin 4096) :
    at2 (a := 4096) (b := 4096) (shapeCast (⟨2, ![4096, 4096]⟩ : Shape) x0 hc) (2048 * b.val + s.val) k.val = x0 (ix3 b s k) := by
  have hb := b.isLt
  have hs := s.isLt
  have hr : 2048 * b.val + s.val < 4096 := by omega
  rw [at2_of_lt _ hr k.isLt]
  refine shapeCast_apply x0 hc _ (ix3 b s k) ?_
  rw [Shape.rowMajor_val_three, Shape.rowMajor_val_two]
  show (b.val * 2048 + s.val) * 4096 + k.val = (2048 * b.val + s.val) * 4096 + k.val
  omega

/-- The reference's contraction of row `(b, s)` with weight row `f` is the flattened row's. -/
theorem ref_rowDot (W : S14336x4096.Idx → EReal) (b : Fin 2) (s : Fin 2048) (f : Fin 14336) :
    (∑ k : Fin 4096, x0 (ix3 b s k) * W (ix2 f k))
      = rowDot (shapeCast (⟨2, ![4096, 4096]⟩ : Shape) x0 hc) W (2048 * b.val + s.val) f.val := by
  unfold rowDot
  refine Finset.sum_congr rfl fun k _ => ?_
  rw [flat_apply x0 hc b s k, at2_of_lt W f.isLt k.isLt]

/-- The reference's result at `(b, s, h)` is the down projection at `(2048 * b + s, h)`. -/
theorem ref_eq_down (i : S2x2048x4096.Idx) :
    val_main_v4 (F := Ideal) x0 x1 x2 x3 i
      = down (shapeCast (⟨2, ![4096, 4096]⟩ : Shape) x0 hc) x1 x2 x3 (2048 * (i 0).val + (i 1).val) (i 2).val := by
  obtain ⟨b, s, h, rfl⟩ : ∃ (b : Fin 2) (s : Fin 2048) (h : Fin 4096), i = ix3 b s h := ⟨i 0, i 1, i 2, eq_ix3 i⟩
  rw [val_main_v4_apply]
  unfold down term act
  refine Finset.sum_congr rfl fun f _ => ?_
  have hl : lidx_main_v4 (ix3 b s h) f = ix3 b s f :=
    funext fun a => by match a with | ⟨0, _⟩ => rfl | ⟨1, _⟩ => rfl | ⟨2, _⟩ => rfl
  have hr : ridx_main_v4 (ix3 b s h) f = ix2 h f :=
    funext fun a => by match a with | ⟨0, _⟩ => rfl | ⟨1, _⟩ => rfl
  have hl0 : ∀ k : Fin 4096, lidx_main_v0 (ix3 b s f) k = ix3 b s k := fun k =>
    funext fun a => by match a with | ⟨0, _⟩ => rfl | ⟨1, _⟩ => rfl | ⟨2, _⟩ => rfl
  have hr0 : ∀ k : Fin 4096, ridx_main_v0 (ix3 b s f) k = ix2 f k := fun k =>
    funext fun a => by match a with | ⟨0, _⟩ => rfl | ⟨1, _⟩ => rfl
  have hl1 : ∀ k : Fin 4096, lidx_main_v1 (ix3 b s f) k = ix3 b s k := fun k =>
    funext fun a => by match a with | ⟨0, _⟩ => rfl | ⟨1, _⟩ => rfl | ⟨2, _⟩ => rfl
  have hr1 : ∀ k : Fin 4096, ridx_main_v1 (ix3 b s f) k = ix2 f k := fun k =>
    funext fun a => by match a with | ⟨0, _⟩ => rfl | ⟨1, _⟩ => rfl
  rw [hl, hr]
  show _ = _ * at2 x3 h.val f.val
  rw [at2_of_lt x3 h.isLt f.isLt]
  refine congrArg (· * x3 (ix2 h f)) ?_
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, val_main_v0_apply, val_main_v1_apply]
  simp only [hl0, hr0, hl1, hr1, Ideal.mulf_def, Ideal.hostDivf_def, Ideal.addf_def, Ideal.hostUnary_exp_def,
    Ideal.hostNegf_def, Ideal.negf_def, Ideal.ofBits_def, ofBits_one]
  rw [ref_rowDot x0 hc x1 b s f, ref_rowDot x0 hc x2 b s f]
  rfl

end Cert.ReferenceIdeal.RefDown

end
-- ==== Proof.Bridge.lean ====
/-
  The kernel's result is the reference's.

  The kernel's result array is the down projection of the flattened activations at
  `(r, h)`, reshaped to `[2, 2048, 4096]`: its entry `(b, s, h)` is the down projection at
  `(2048 * b + s, h)`. That is the reference's result at `(b, s, h)`.
-/
import proofs.«138645_j58360015618262_2_alg».proof.Proof.Final
import proofs.«138645_j58360015618262_2_alg».proof.Proof.Inputs
import proofs.«138645_j58360015618262_2_alg».proof.Proof.RefDown

set_option maxRecDepth 16384

noncomputable section

namespace Cert.Proof.Bridge

open Idealize.ShloMosaic Idealize.ShloMosaic.TcCoe Idealize.SL.Sem Idealize.ShloMosaic.ValueIdx GatedMlp

variable (m : (ℓ : Loc Cert.KernelIdeal.nD Cert.KernelIdeal.τ Cert.KernelIdeal.sig) → Buf (Elt Ideal) ℓ)

/-- The kernel's result array, reshaped, is the reference's result term of the same arguments. -/
theorem result_eq (c : Dev Cert.KernelIdeal.nD) :
    shapeCast Cert.KernelIdeal.S2x2048x4096 (Cert.KernelIdeal.Final.result m c)
        Cert.KernelIdeal.Facts₀.shapeCasts_S4096x4096_S2x2048x4096
      = Cert.ReferenceIdeal.Read.val_main_v4 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext i
  obtain ⟨b, s, h, rfl⟩ : ∃ (b : Fin 2) (s : Fin 2048) (h : Fin 4096), i = ix3 b s h := ⟨i 0, i 1, i 2, eq_ix3 i⟩
  have hb := b.isLt
  have hs := s.isLt
  have hr : 2048 * b.val + s.val < 4096 := by omega
  rw [Cert.ReferenceIdeal.RefDown.ref_eq_down _ _ _ _ Cert.KernelIdeal.Facts₀.shapeCasts_S2x2048x4096_S4096x4096 (ix3 b s h)]
  refine (shapeCast_apply (Cert.KernelIdeal.Final.result m c) Cert.KernelIdeal.Facts₀.shapeCasts_S4096x4096_S2x2048x4096
    (ix3 b s h) (ix2 ⟨2048 * b.val + s.val, hr⟩ h) ?_).trans ?_
  · rw [Shape.rowMajor_val_two, Shape.rowMajor_val_three]
    show (2048 * b.val + s.val) * 4096 + h.val = (b.val * 2048 + s.val) * 4096 + h.val
    omega
  · unfold Cert.KernelIdeal.Final.result
    rw [Cert.KernelIdeal.Inputs.V_v1, Cert.KernelIdeal.Inputs.V_v2, Cert.KernelIdeal.Inputs.V_v3, Cert.KernelIdeal.Inputs.V_v4]

end Cert.Proof.Bridge

end
-- ==== Proof.lean ====
/-
  A gated projection (SwiGLU) kernel against its reference, over the extended reals.

  Both programs compute, for activations `x : [2, 2048, 4096]` and weights `w_gate, w_up : [14336, 4096]`,
  `w_down : [4096, 14336]`,
    `out[b, s, h] = ∑ i < 14336, ((g * logistic g) * u)[b, s, i] * w_down[h, i]`,
  with `g[b, s, i] = ∑ k < 4096, x[b, s, k] * w_gate[i, k]` and `u` the same against `w_up`.

  The reference computes exactly that: its `g * (1 / (1 + exp (-g)))` is `g * logistic g` by the
  definition of the logistic function on the extended reals. The kernel flattens the activations to
  4096 rows, walks 8 row tiles of 512 rows and, for each, 56 blocks of 256 features: it resets the
  tile's output block at the first feature block, adds each feature block's contribution
  `∑ t < 256, act[r, 256 j + t] * w_down[h, 256 j + t]`, writes the block back after the last one, and
  reshapes the result. Changes of float format are the identity, each matrix product into a zero
  accumulator is a plain sum, and the sum over 14336 features regrouped into 56 blocks of 256 is the
  same extended real, since only commutativity and associativity of addition are used. The inputs'
  finiteness is not needed.

  The three frames are the programs' runs with the results dropped; the idealization rewrote nothing.
-/
import proofs.«138645_j58360015618262_2_alg».proof.Defs
import proofs.«138645_j58360015618262_2_alg».proof.Proof.Gen.Kernel
import proofs.«138645_j58360015618262_2_alg».proof.Proof.Gen.Kernel.Skeleton
import proofs.«138645_j58360015618262_2_alg».proof.Proof.Gen.Kernel.Launch
import proofs.«138645_j58360015618262_2_alg».proof.Proof.Gen.Kernel.Points
import proofs.«138645_j58360015618262_2_alg».proof.Proof.Gen.Kernel.Frame
import proofs.«138645_j58360015618262_2_alg».proof.Proof.Gen.KernelIdeal
import proofs.«138645_j58360015618262_2_alg».proof.Proof.Gen.KernelIdeal.Skeleton
import proofs.«138645_j58360015618262_2_alg».proof.Proof.Gen.KernelIdeal.Launch
import proofs.«138645_j58360015618262_2_alg».proof.Proof.Gen.KernelIdeal.Points
import proofs.«138645_j58360015618262_2_alg».proof.Proof.Gen.KernelIdeal.Frame
import proofs.«138645_j58360015618262_2_alg».proof.Proof.Gen.ReferenceIdeal
import proofs.«138645_j58360015618262_2_alg».proof.Proof.Gen.ReferenceIdeal.Run
import proofs.«138645_j58360015618262_2_alg».proof.Proof.Gen.ReferenceIdeal.Read
import proofs.«138645_j58360015618262_2_alg».proof.Proof.Gen.Pre_finite_inputs
import Idealize.ShloMosaic.Adequacy
import Idealize.ShloMosaic.Init

import proofs.«138645_j58360015618262_2_alg».proof.Proof.Final
import proofs.«138645_j58360015618262_2_alg».proof.Proof.Bridge

noncomputable section

namespace Cert.Proof

open Idealize.ShloMosaic Idealize.SL.Sem

/-- From memories agreeing on the arguments both idealized programs run, and the kernel's result — the
    reshaped down projection — is the reference's result term of the same arguments. -/
theorem algebraic : Cert.algebraic_KernelIdeal_ReferenceIdeal := by
  intro m ρ m' ρ' _ hagree
  refine ⟨fun c => shapeCast Cert.KernelIdeal.S2x2048x4096 (Cert.KernelIdeal.Final.result m c)
      Cert.KernelIdeal.Facts₀.shapeCasts_S4096x4096_S2x2048x4096, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2.1, (hagree c).2.2.1, (hagree c).2.2.2]
  exact (Cert.Proof.Bridge.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
